-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x512 .f32) (main_arg1 : IVec S2x800000 32) (main_arg2 : FVec F S512x256 .f32) (main_arg3 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S50000x256 : Shape := ⟨2, ![50000, 256]⟩
abbrev S2000x512 : Shape := ⟨2, ![2000, 512]⟩
abbrev S2000x256 : Shape := ⟨2, ![2000, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 63
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S50000x256, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x256, .f32⟩
  | .hbm, ⟨54, _⟩ => ⟨S850000x1, .f32⟩
  | .hbm, ⟨55, _⟩ => ⟨S850000x256, .f32⟩
  | .hbm, ⟨56, _⟩ => ⟨S850000x256, .f32⟩
  | .hbm, ⟨57, _⟩ => ⟨S_, .f32⟩
  | .hbm, ⟨58, _⟩ => ⟨S50000x256, .f32⟩
  | .hbm, ⟨59, _⟩ => ⟨S850000x1, .i32⟩
  | .hbm, ⟨60, _⟩ => ⟨S50000x256, .f32⟩
  | .hbm, ⟨61, _⟩ => ⟨S1x256, .f32⟩
  | .hbm, ⟨62, _⟩ => ⟨S50000x256, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S2000x512_S512x256_S2000x256_1_0_0_1_n_n_wf : DotDims.WF S2000x512 S512x256 S2000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S50000x256 : Shape := ⟨2, ![50000, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 67
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S50000x256, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x256, .f32⟩
  | .hbm, ⟨54, _⟩ => ⟨S850000x1, .f32⟩
  | .hbm, ⟨55, _⟩ => ⟨S850000x256, .f32⟩
  | .hbm, ⟨56, _⟩ => ⟨S850000x256, .f32⟩
  | .hbm, ⟨57, _⟩ => ⟨S_, .f32⟩
  | .hbm, ⟨58, _⟩ => ⟨S50000x256, .f32⟩
  | .hbm, ⟨59, _⟩ => ⟨S850000x1, .i32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .hbm, ⟨64, _⟩ => ⟨S_, .f32⟩
  | .hbm, ⟨65, _⟩ => ⟨S50000x256, .f32⟩
  | .hbm, ⟨66, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.MatmulBlock.lean ====
/-
  The matrix-product body at one element of the block it stores.

  The body takes a 2000×512 block of `x` and the whole 512×256 weight, rounds both to bf16, multiplies them into a zero
  accumulator and stores the 2000×256 product.  Over the extended reals a change of float format is the identity and the
  accumulator's word is the real 0, so the stored element (p, q) is the plain sum over k < 512 of x(p, k) · W(k, q).  The
  contraction has one axis, so its index set is identified with `Fin 512` and the sum is re-indexed through that bijection;
  the operand indices the contraction reads are then (p, k) and (k, q), coordinate by coordinate.
-/
import proofs.«122299_j65446711657116_1_alg».proof.Proof.Gen.KernelIdeal.Skeleton
import Idealize.ShloMosaic.Lib.ValueIdx
import Idealize.ShloMosaic.PureOps.Ideal.Laws

noncomputable section

open scoped BigOperators

namespace Cert.KernelIdeal.Matmul

open Cert.KernelIdeal Cert.KernelIdeal.Gen Idealize.ShloMosaic Idealize.ShloMosaic.ValueIdx

/-- The body's contraction: axis 1 of the left block against axis 0 of the right one, no batch axis. -/
abbrev blockDot : DotDims S2000x512 S512x256 S2000x256 := dot_S2000x512_S512x256_S2000x256_1_0_0_1_n_n

/-- The left operand's index for output element `y` and contraction coordinate `k`: row of `y`, column `k`. -/
abbrev lrow (y : S2000x256.Idx) (k : Fin 512) : S2000x512.Idx := fun a => match a with
  | ⟨0, _⟩ => ⟨(y 0).val, (y 0).isLt⟩
  | ⟨1, _⟩ => ⟨k.val, k.isLt⟩
/-- The right operand's index: row `k`, column of `y`. -/
abbrev rcol (y : S2000x256.Idx) (k : Fin 512) : S512x256.Idx := fun a => match a with
  | ⟨0, _⟩ => ⟨k.val, k.isLt⟩
  | ⟨1, _⟩ => ⟨(y 1).val, (y 1).isLt⟩

theorem lhs_row (y : S2000x256.Idx) (κ : blockDot.contr.Idx) : (blockDot.lhsIdx y κ 0).val = (y 0).val := by
  unfold DotDims.lhsIdx
  rw [dif_neg (show ¬(0 : Fin S2000x512.rank) ∈ blockDot.lhsBatch by decide), dif_pos (show (0 : Fin S2000x512.rank) ∈ blockDot.lhsNonContracting by decide)]
  rfl
theorem lhs_col (y : S2000x256.Idx) (κ : blockDot.contr.Idx) : (blockDot.lhsIdx y κ 1).val = (κ ⟨0, by decide⟩).val :=
  blockDot.lhsIdx_val_of_single rfl y κ
theorem rhs_row (y : S2000x256.Idx) (κ : blockDot.contr.Idx) : (blockDot.rhsIdx y κ 0).val = (κ ⟨0, by decide⟩).val :=
  blockDot.rhsIdx_val_of_single rfl y κ
theorem rhs_col (y : S2000x256.Idx) (κ : blockDot.contr.Idx) : (blockDot.rhsIdx y κ 1).val = (y 1).val := by
  unfold DotDims.rhsIdx
  rw [dif_neg (show ¬(1 : Fin S512x256.rank) ∈ blockDot.rhsBatch by decide), dif_pos (show (1 : Fin S512x256.rank) ∈ blockDot.rhsNonContracting by decide)]
  rfl

/-- The stored block at `y` is the sum over `k` of the left block at (row of `y`, `k`) times the right one at (`k`, column of `y`). -/
theorem pay_apply (x0 : Vec Ideal S2000x512 .f32) (x1 : Vec Ideal S512x256 .f32) (y : S2000x256.Idx) :
    k0_pay1 (F := Ideal) x0 x1 y = ∑ k : Fin 512, x0 (lrow y k) * x1 (rcol y k) := by
  unfold k0_pay1
  refine (Ideal.matmul_constant_zero_apply blockDot none (truncf .bf16 x0 bitsLt_bf16_f32) (truncf .bf16 x1 bitsLt_bf16_f32) y).trans ?_
  rw [← Equiv.sum_comp (contrEquiv1 blockDot 512 rfl rfl).symm]
  refine Finset.sum_congr rfl fun k _ => ?_
  have hk := contrEquiv1_symm_val blockDot 512 rfl rfl k
  have el : blockDot.lhsIdx y ((contrEquiv1 blockDot 512 rfl rfl).symm k) = lrow y k := funext fun a => Fin.ext (by
    match a with
    | ⟨0, _⟩ => exact lhs_row _ _
    | ⟨1, _⟩ => exact (lhs_col _ _).trans hk)
  have er : blockDot.rhsIdx y ((contrEquiv1 blockDot 512 rfl rfl).symm k) = rcol y k := funext fun a => Fin.ext (by
    match a with
    | ⟨0, _⟩ => exact (rhs_row _ _).trans hk
    | ⟨1, _⟩ => exact rhs_col _ _)
  show x0 (blockDot.lhsIdx y _) * x1 (blockDot.rhsIdx y _) = _
  rw [el, er]

end Cert.KernelIdeal.Matmul

end
-- ==== Proof.MatmulArray.lean ====
/-
  The first region's output array after all 25 grid points: the whole matrix product.

  Point `t` of the grid stages rows 2000·t … 2000·t + 1999 of `x` (all 512 columns), the whole weight (its block index never
  moves), computes their product and writes it back as rows 2000·t … 2000·t + 1999 of the output.  So what point `t` writes
  back is block `t` of ONE whole-array function, `product x W`, entry (r, j) = Σ_k x(r, k) · W(k, j); the 25 blocks tile
  the 50000 rows (row r lies in block r / 2000), hence the array ends as that function.  The region's entry contents `V`
  stay a parameter throughout: nothing about the arrays' values is used.
-/
import proofs.«122299_j65446711657116_1_alg».proof.Proof.Gen.KernelIdeal.Frame
import proofs.«122299_j65446711657116_1_alg».proof.Proof.MatmulBlock
import Idealize.ShloMosaic.Lib.Pipeline.Value

noncomputable section

open scoped BigOperators

namespace Cert.KernelIdeal.Matmul

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Row of output entry `i`, column `k`: where the product reads `x`. -/
abbrev xAt (i : S50000x256.Idx) (k : Fin 512) : S50000x512.Idx := fun a => match a with
  | ⟨0, _⟩ => ⟨(i 0).val, (i 0).isLt⟩
  | ⟨1, _⟩ => ⟨k.val, k.isLt⟩
/-- Row `k`, column of output entry `i`: where the product reads the weight. -/
abbrev wAt (i : S50000x256.Idx) (k : Fin 512) : S512x256.Idx := fun a => match a with
  | ⟨0, _⟩ => ⟨k.val, k.isLt⟩
  | ⟨1, _⟩ => ⟨(i 1).val, (i 1).isLt⟩

/-- The whole matrix product over the extended reals, entry by entry. -/
def product (x : (⟨S50000x512, .f32⟩ : BufTy).Contents (Elt Ideal)) (w : (⟨S512x256, .f32⟩ : BufTy).Contents (Elt Ideal)) :
    (⟨S50000x256, .f32⟩ : BufTy).Contents (Elt Ideal) :=
  fun i => ∑ k : Fin 512, x (xAt i k) * w (wAt i k)

theorem zero_off : (![0, 0] : Fin 2 → Nat) = fun _ => 0 := funext fun a => by fin_cases a <;> rfl

/-- The three windows' block indices at every point of the grid, decided: `x`'s and the output's row block is the point,
    every column block and both of the weight's are 0. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The staged block of `x` at point `t`, read at `z`, is `x` at row 2000·t + (row of z), same column. -/
theorem read_x (c : Dev nD) (t : Fin cfg0.N) (z : S2000x512.Idx) (i : S50000x512.Idx)
    (h0 : (i 0).val = t.val * 2000 + (z 0).val) (h1 : (i 1).val = (z 1).val) :
    iblk0 V c 0 t z = V c main_arg0 i := by
  obtain ⟨e0, e1, -, -, -, -⟩ := block_index t
  show V c main_arg0 (((cfg0.win 0).blk t).view.emb z) = V c main_arg0 i
  refine congrArg _ (funext fun a => Fin.ext ?_)
  match a with
  | ⟨0, _⟩ => show win0_0.index t (0 : Fin 2) * 2000 + 1 * (z 0).val = (i 0).val; omega
  | ⟨1, _⟩ => show win0_0.index t (1 : Fin 2) * 512 + 1 * (z 1).val = (i 1).val; omega

/-- The staged weight at any point, read at `z`, is the weight at `z`. -/
theorem read_w (c : Dev nD) (t : Fin cfg0.N) (z : S512x256.Idx) (i : S512x256.Idx)
    (h0 : (i 0).val = (z 0).val) (h1 : (i 1).val = (z 1).val) :
    iblk0 V c 1 t z = V c main_arg2 i := by
  obtain ⟨-, -, e2, e3, -, -⟩ := block_index t
  show V c main_arg2 (((cfg0.win 1).blk t).view.emb z) = V c main_arg2 i
  refine congrArg _ (funext fun a => Fin.ext ?_)
  match a with
  | ⟨0, _⟩ => show win0_1.index t (0 : Fin 2) * 512 + 1 * (z 0).val = (i 0).val; omega
  | ⟨1, _⟩ => show win0_1.index t (1 : Fin 2) * 256 + 1 * (z 1).val = (i 1).val; omega

/-- What point `t` writes back is block `t` of the whole product of the arrays as the region finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_off]
  simp only [View.ld_unit_zero (S := S2000x512) zero_off, View.ld_unit_zero (S := S512x256) zero_off]
  obtain ⟨-, -, -, -, e4, e5⟩ := block_index t
  funext j
  show k0_pay1 (F := Ideal) (iblk0 V c 0 t) (iblk0 V c 1 t) j
    = product (V c main_arg0) (V c main_arg2) (((cfg0.win 2).blk t).view.emb j)
  refine (pay_apply (iblk0 V c 0 t) (iblk0 V c 1 t) j).trans ?_
  unfold product
  refine Finset.sum_congr rfl fun k _ => ?_
  have r0 : ((((cfg0.win 2).blk t).view.emb j) 0).val = t.val * 2000 + (j 0).val := by
    show win0_2.index t (0 : Fin 2) * 2000 + 1 * (j 0).val = _; omega
  have r1 : ((((cfg0.win 2).blk t).view.emb j) 1).val = (j 1).val := by
    show win0_2.index t (1 : Fin 2) * 256 + 1 * (j 1).val = _; omega
  rw [read_x V c t (lrow j k) (xAt (((cfg0.win 2).blk t).view.emb j) k) r0 rfl,
    read_w V c t (rcol j k) (wAt (((cfg0.win 2).blk t).view.emb j) k) rfl r1]

/-- An index of the output array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Every entry of the output is written back by some point: row r by point r / 2000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hlt : (i 0).val / 2000 < cfg0.N := by show (i 0).val / 2000 < grid0.N; rw [N_0]; omega
  refine ⟨⟨(i 0).val / 2000, hlt⟩, flush0_2 _, ?_⟩
  rw [mem_blk]
  obtain ⟨-, -, -, -, e4, e5⟩ := block_index ⟨(i 0).val / 2000, hlt⟩
  have e4' : win0_2.index ⟨(i 0).val / 2000, hlt⟩ (0 : Fin 2) = (i 0).val / 2000 := e4
  intro a
  match a with
  | ⟨0, _⟩ => show win0_2.index ⟨(i 0).val / 2000, hlt⟩ (0 : Fin 2) * 2000 ≤ (i 0).val ∧ (i 0).val < win0_2.index ⟨(i 0).val / 2000, hlt⟩ (0 : Fin 2) * 2000 + 2000; omega
  | ⟨1, _⟩ => show win0_2.index ⟨(i 0).val / 2000, hlt⟩ (1 : Fin 2) * 256 ≤ (i 1).val ∧ (i 1).val < win0_2.index ⟨(i 0).val / 2000, hlt⟩ (1 : Fin 2) * 256 + 256; omega

/-- After the region the output array is the whole product of the two arrays as the region found them. -/
theorem final (c : Dev nD) : (dat0 V c).arrAt 2 cfg0.N = product (V c main_arg0) (V c main_arg2) :=
  (dat0 V c).arrAt_eq_of_cover 2 _ (fun t _ => flushed_eq V c t) cover

end Cert.KernelIdeal.Matmul

end
-- ==== Proof.BiasReluBlock.lean ====
/-
  The bias-and-rectify body at one element of the block it stores.

  The body loads a 2000×256 block of the aggregated features and the one 1×256 row of the bias, spreads the row over the
  2000 rows, adds, and keeps the larger of the sum and zero.  Read at `y` = (p, q) that is
  max(agg(p, q) + bias(0, q), 0): the two same-shape casts are the identity and the spread row is read at its one row.
  Nothing here depends on which numbers the floats are, so it is stated for every float instance.
-/
import proofs.«122299_j65446711657116_1_alg».proof.Proof.Gen.KernelIdeal.Skeleton
import Idealize.ShloMosaic.Lib.Pipeline.Value
import Idealize.ShloMosaic.Lib.ValueIdx

noncomputable section

namespace Cert.KernelIdeal.BiasRelu

open Cert.KernelIdeal Cert.KernelIdeal.Gen Idealize.ShloMosaic Idealize.ShloMosaic.ValueIdx

variable {F : FTy → Type} [FloatOps F]

/-- The bias row's index under element `y` of the block: row 0, column of `y`. -/
abbrev brow (y : S2000x256.Idx) : S1x256.Idx := fun a => match a with
  | ⟨0, _⟩ => ⟨0, Nat.one_pos⟩
  | ⟨1, _⟩ => ⟨(y 1).val, (y 1).isLt⟩

/-- The stored block at `y`: the larger of `agg y + bias (0, column of y)` and zero. -/
theorem pay_apply (x0 : Vec F S2000x256 .f32) (x1 : Vec F S1x256 .f32) (y : S2000x256.Idx) :
    k1_pay1 x0 x1 y = FloatOps.maximumf (FloatOps.addf (x0 y) (x1 (brow y))) (FloatOps.ofBits .f32 0x00000000#32) := by
  unfold k1_pay1
  show FloatOps.maximumf (FloatOps.addf (shapeCast S2000x256 x0 shapeCasts_S2000x256_S2000x256 y)
      (broadcastTo S2000x256 (shapeCast S1x256 x1 shapeCasts_S1x256_S1x256) broadcasts_S1x256_S2000x256 y)) _ = _
  rw [shapeCast_self, shapeCast_self]
  rw [broadcastTo_apply x1 broadcasts_S1x256_S2000x256 y (brow y) (fun a => match a with
    | ⟨0, _⟩ => by show 0 = if (1 : Nat) = 1 then 0 else _; rw [if_pos rfl]
    | ⟨1, _⟩ => by show (y 1).val = if (256 : Nat) = 1 then 0 else (y 1).val; rw [if_neg (by decide)])]
  rfl

end Cert.KernelIdeal.BiasRelu

end
-- ==== Proof.BiasReluArray.lean ====
/-
  The second region's output array after all 25 grid points: bias added and rectified, entry by entry.

  Point `t` stages rows 2000·t … 2000·t + 1999 of the aggregated features (all 256 columns) and the one bias row (its block
  index never moves), and writes back the same rows of the output.  What it writes back is block `t` of ONE whole-array
  function, `biasRelu agg bias`, entry (r, j) = max(agg(r, j) + bias(0, j), 0); the 25 blocks tile the 50000 rows, so the
  array ends as that function.  Stated for every float instance and for any region-entry contents `V`.
-/
import proofs.«122299_j65446711657116_1_alg».proof.Proof.Gen.KernelIdeal.Frame
import proofs.«122299_j65446711657116_1_alg».proof.Proof.BiasReluBlock
import Idealize.ShloMosaic.Lib.Pipeline.Value

noncomputable section

namespace Cert.KernelIdeal.BiasRelu

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The bias row's index under entry `i` of the array: row 0, column of `i`. -/
abbrev biasAt (i : S50000x256.Idx) : S1x256.Idx := fun a => match a with
  | ⟨0, _⟩ => ⟨0, Nat.one_pos⟩
  | ⟨1, _⟩ => ⟨(i 1).val, (i 1).isLt⟩

/-- Bias added along the rows and the result rectified, entry by entry. -/
def biasRelu (agg : (⟨S50000x256, .f32⟩ : BufTy).Contents (Elt F)) (bias : (⟨S1x256, .f32⟩ : BufTy).Contents (Elt F)) :
    (⟨S50000x256, .f32⟩ : BufTy).Contents (Elt F) :=
  fun i => FloatOps.maximumf (FloatOps.addf (agg i) (bias (biasAt i))) (FloatOps.ofBits .f32 0x00000000#32)

theorem zero_off : (![0, 0] : Fin 2 → Nat) = fun _ => 0 := funext fun a => by fin_cases a <;> rfl

/-- The three windows' block indices at every point of the grid, decided: the features' and the output's row block is the
    point, every column block and both of the bias row's are 0. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The staged block of the features at point `t`, read at `z`, is the array at row 2000·t + (row of z), same column. -/
theorem read_agg (c : Dev nD) (t : Fin cfg1.N) (z : S2000x256.Idx) (i : S50000x256.Idx)
    (h0 : (i 0).val = t.val * 2000 + (z 0).val) (h1 : (i 1).val = (z 1).val) :
    iblk1 V c 0 t z = V c main_v43 i := by
  obtain ⟨e0, e1, -, -, -, -⟩ := block_index t
  show V c main_v43 (((cfg1.win 0).blk t).view.emb z) = V c main_v43 i
  refine congrArg _ (funext fun a => Fin.ext ?_)
  match a with
  | ⟨0, _⟩ => show win1_0.index t (0 : Fin 2) * 2000 + 1 * (z 0).val = (i 0).val; omega
  | ⟨1, _⟩ => show win1_0.index t (1 : Fin 2) * 256 + 1 * (z 1).val = (i 1).val; omega

/-- The staged bias row at any point, read at `z`, is the bias row at `z`. -/
theorem read_bias (c : Dev nD) (t : Fin cfg1.N) (z : S1x256.Idx) (i : S1x256.Idx)
    (h0 : (i 0).val = (z 0).val) (h1 : (i 1).val = (z 1).val) :
    iblk1 V c 1 t z = V c main_v44 i := by
  obtain ⟨-, -, e2, e3, -, -⟩ := block_index t
  show V c main_v44 (((cfg1.win 1).blk t).view.emb z) = V c main_v44 i
  refine congrArg _ (funext fun a => Fin.ext ?_)
  match a with
  | ⟨0, _⟩ => show win1_1.index t (0 : Fin 2) * 1 + 1 * (z 0).val = (i 0).val; omega
  | ⟨1, _⟩ => show win1_1.index t (1 : Fin 2) * 256 + 1 * (z 1).val = (i 1).val; omega

/-- What point `t` writes back is block `t` of `biasRelu` of the two arrays as the region finds them. -/
theorem flushed_eq (c : Dev nD) (t : Fin cfg1.N) :
    (dat1 V c).flushed 2 t = ((cfg1.win 2).blk t).view.read (Elt F) (biasRelu (V c main_v43) (V c main_v44)) := by
  show (cfg1.win 2).cut (grid1.coords t) ((dat1 V c).after 2 t) = _
  rw [after1_2]
  unfold out1_2
  rw [View.canon_unit_zero zero_off]
  simp only [View.ld_unit_zero (S := S2000x256) zero_off, View.ld_unit_zero (S := S1x256) zero_off]
  obtain ⟨-, -, -, -, e4, e5⟩ := block_index t
  funext j
  show k1_pay1 (iblk1 V c 0 t) (iblk1 V c 1 t) j
    = biasRelu (V c main_v43) (V c main_v44) (((cfg1.win 2).blk t).view.emb j)
  refine (pay_apply (iblk1 V c 0 t) (iblk1 V c 1 t) j).trans ?_
  unfold biasRelu
  have r0 : ((((cfg1.win 2).blk t).view.emb j) 0).val = t.val * 2000 + (j 0).val := by
    show win1_2.index t (0 : Fin 2) * 2000 + 1 * (j 0).val = _; omega
  have r1 : ((((cfg1.win 2).blk t).view.emb j) 1).val = (j 1).val := by
    show win1_2.index t (1 : Fin 2) * 256 + 1 * (j 1).val = _; omega
  rw [read_agg V c t j (((cfg1.win 2).blk t).view.emb j) r0 r1,
    read_bias V c t (brow j) (biasAt (((cfg1.win 2).blk t).view.emb j)) rfl r1]

/-- An index of the output array is in point `t`'s block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v45).slice (win1_2.rect t)).set ↔ _
  rw [View.set_slice_whole, Rect.mem_set_unit]
  exact Iff.rfl

/-- Every entry of the output is written back by some point: row r by point r / 2000. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hlt : (i 0).val / 2000 < cfg1.N := by show (i 0).val / 2000 < grid1.N; rw [N_1]; omega
  refine ⟨⟨(i 0).val / 2000, hlt⟩, flush1_2 _, ?_⟩
  rw [mem_blk]
  obtain ⟨-, -, -, -, e4, e5⟩ := block_index ⟨(i 0).val / 2000, hlt⟩
  have e4' : win1_2.index ⟨(i 0).val / 2000, hlt⟩ (0 : Fin 2) = (i 0).val / 2000 := e4
  intro a
  match a with
  | ⟨0, _⟩ => show win1_2.index ⟨(i 0).val / 2000, hlt⟩ (0 : Fin 2) * 2000 ≤ (i 0).val ∧ (i 0).val < win1_2.index ⟨(i 0).val / 2000, hlt⟩ (0 : Fin 2) * 2000 + 2000; omega
  | ⟨1, _⟩ => show win1_2.index ⟨(i 0).val / 2000, hlt⟩ (1 : Fin 2) * 256 ≤ (i 1).val ∧ (i 1).val < win1_2.index ⟨(i 0).val / 2000, hlt⟩ (1 : Fin 2) * 256 + 256; omega

/-- After the region the output array is `biasRelu` of the two arrays as the region found them. -/
theorem final (c : Dev nD) : (dat1 V c).arrAt 2 cfg1.N = biasRelu (V c main_v43) (V c main_v44) :=
  (dat1 V c).arrAt_eq_of_cover 2 _ (fun t _ => flushed_eq V c t) cover

end Cert.KernelIdeal.BiasRelu

end
-- ==== Proof.HostChain.lean ====
/-
  The host operations between the two regions, as one function of what they read.

  Between the regions @main computes, on the host, from the edge list `e` (2 × 800000 node numbers) and the first region's
  output `h` = x·W: the source and target lists with one self-loop per node appended; the targets' in-degrees as a
  scatter-add of ones; their inverse square roots where the degree is positive and zero elsewhere; per edge the product
  of the two end points' factors; the rows of `h` gathered at the sources, scaled by that product, and scatter-added at
  the targets.  The reference program runs the very same operations on its own `h`.  So the aggregate is ONE function
  `aggregate h e`, written here over the reference's stages, and the kernel's three stretches of host operations, read
  back at the aggregate's buffer from ANY contents `W` of the buffers when the first region ends, give `aggregate` of `W`
  at the first region's output and at the edge list.  Nothing of the scatter, the gathers or the square root is opened:
  both sides apply them to equal operands.  The bias reaches the second region as a 1 × 256 row, a reshape of the argument.
-/
import proofs.«122299_j65446711657116_1_alg».proof.Proof.Gen.KernelIdeal.Launch
import proofs.«122299_j65446711657116_1_alg».proof.Proof.RefRead
import Idealize.ShloMosaic.Lib.StableHlo.Run

noncomputable section

namespace Cert.Bridge

open Idealize.ShloMosaic Idealize.ShloMosaic.TcCoe Idealize.SL.Sem Idealize.ShloMosaic.StableHlo

variable {F : FTy → Type} [FloatOps F]

/-- The normalized neighbourhood sum: rows of `h` gathered at the edges' sources, each scaled by the product of its end
    points' inverse square-root degrees, scatter-added at the targets into zeros (every stage but `h` depends on the
    edge list only). -/
def aggregate (h : (⟨Cert.ReferenceIdeal.S50000x256, .f32⟩ : BufTy).Contents (Elt F))
    (e : (⟨Cert.ReferenceIdeal.S2x800000, .i32⟩ : BufTy).Contents (Elt F)) :
    (⟨Cert.ReferenceIdeal.S50000x256, .f32⟩ : BufTy).Contents (Elt F) :=
  Host.scatterAdd Cert.ReferenceIdeal.scatter_S50000x256_S850000x1_S850000x256_1_0_0_1
    (Cert.ReferenceIdeal.ReadP.val_main_v41 (F := F)) (Cert.ReferenceIdeal.ReadP.val_main_v42 (F := F) e)
    (mulf (Host.gather Cert.ReferenceIdeal.gather_S50000x256_S850000x1_S850000x256_1_0_n_n_0_1_1256 h (Cert.ReferenceIdeal.ReadP.val_main_v36 (F := F) e))
      (Cert.ReferenceIdeal.ReadP.val_main_v39 (F := F) e))

/-- The reference's aggregate stage is `aggregate` of its own matrix product. -/
theorem reference_aggregate (x0 : (⟨Cert.ReferenceIdeal.S50000x512, .f32⟩ : BufTy).Contents (Elt F))
    (x1 : (⟨Cert.ReferenceIdeal.S2x800000, .i32⟩ : BufTy).Contents (Elt F))
    (x2 : (⟨Cert.ReferenceIdeal.S512x256, .f32⟩ : BufTy).Contents (Elt F)) :
    Cert.ReferenceIdeal.ReadP.val_main_v43 (F := F) x0 x1 x2
      = aggregate (Cert.ReferenceIdeal.ReadP.val_main_v0 (F := F) x0 x2) x1 := by
  unfold Cert.ReferenceIdeal.ReadP.val_main_v43 Cert.ReferenceIdeal.ReadP.val_main_v40 Cert.ReferenceIdeal.ReadP.val_main_v37 aggregate
  rfl

open Cert.KernelIdeal Cert.KernelIdeal.Gen in
set_option maxRecDepth 8192 in
set_option maxHeartbeats 25200000 in
/-- The kernel's three host stretches, from any contents `W`, leave at the aggregate's buffer `aggregate` of `W` at the
    first region's output and at the edge list. -/
theorem kernel_aggregate (W : Valuation Cert.KernelIdeal.τ Cert.KernelIdeal.sig (Elt F)) :
    StableHlo.after (hostOps1_2 (F := F)) (StableHlo.after (hostOps1_1 (F := F)) (StableHlo.after (hostOps1 (F := F)) W)) (Proc.devRef .tc main_v43)
      = aggregate (W (Proc.devRef .tc main_v0)) (W (Proc.devRef .tc main_arg1)) := by
  dsimp only [hostOps1, hostOps1_1, hostOps1_2]
  after_results_simp
  unfold aggregate
  rfl

open Cert.KernelIdeal Cert.KernelIdeal.Gen in
set_option maxRecDepth 8192 in
set_option maxHeartbeats 25200000 in
/-- and at the bias row's buffer the argument reshaped from [256] to [1, 256]. -/
theorem kernel_bias_row (W : Valuation Cert.KernelIdeal.τ Cert.KernelIdeal.sig (Elt F)) :
    StableHlo.after (hostOps1_2 (F := F)) (StableHlo.after (hostOps1_1 (F := F)) (StableHlo.after (hostOps1 (F := F)) W)) (Proc.devRef .tc main_v44)
      = shapeCast Cert.KernelIdeal.S1x256 (W (Proc.devRef .tc main_arg3)) shapeCasts_S256_S1x256 := by
  dsimp only [hostOps1, hostOps1_1, hostOps1_2]
  after_results_simp
  rfl

end Cert.Bridge

end
-- ==== Proof.KernelRun.lean ====
/-
  The idealized kernel's run with its result array named.

  @main is five segments: the matrix-product region, three stretches of host operations (the edge lists with self-loops,
  the degrees and their inverse square roots, the gathered, scaled and scatter-added features, the bias row), and the
  bias-and-rectify region.  The buffer contents at each segment boundary are a fold from the launch memory (`W0` … `W5`),
  and the last thread state holds every unscoped buffer at `W5`.  Reading that state against the final memory at the
  result buffer as well as at the four arguments gives the run below: the result is the second region's output window
  after its 25 write-backs (`W5` at a region's array is what the pipeline leaves there), and no segment writes an argument.
-/
import proofs.«122299_j65446711657116_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the second region's
    output window after all its write-backs and the four arguments as launched. -/
theorem run : θ_run defs (onTc (τ := τ) (main (F := F))) ⟨m, fun _ => 0, ρ⟩ (fun r => ∀ c : Dev nD,
      r.2.mem ((c.tc : Thread nD τ).loc main_v45) = (dat1 (V4 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v45 (by decide))).trans (W5_arr m ρ c 2),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Result

end
-- ==== Proof.Bridge.lean ====
/-
  Both programs compute one function of the four arguments.

  Write `h = x·W` (entry (r, j) = Σ_k x(r, k)·W(k, j)), `aggregate h e` for the normalized neighbourhood sum the host
  operations compute from `h` and the edge list, and `biasRelu a b` for max(a(r, j) + b(0, j), 0).  The function is
  `result x e W b = biasRelu (aggregate (x·W) e) (b as a 1 × 256 row)`.

  The reference: its last stage is max(· , 0) of the sum of its aggregate and the bias spread over the rows; read at an
  entry, the bias spread twice ([256] → [1, 256] → [50000, 256]) is the bias at the entry's column, which is where the
  reshaped row is read too (same row-major position).

  The kernel: the second region leaves `biasRelu` of its two input arrays as it finds them; the host stretches make those
  `aggregate` of the first region's output and the edge list, and the reshaped bias; the first region leaves the whole
  product of `x` and `W`, and no segment before them writes an argument.  The product and the reference's `dot_general`
  are the same sum entry by entry: a matrix product into a zero accumulator, with the operands' change of float format the
  identity on extended reals, against the host's contraction over the same axis.  No law that needs finiteness is used.
-/
import proofs.«122299_j65446711657116_1_alg».proof.Proof.RefRead
import proofs.«122299_j65446711657116_1_alg».proof.Proof.MatmulArray
import proofs.«122299_j65446711657116_1_alg».proof.Proof.BiasReluArray
import proofs.«122299_j65446711657116_1_alg».proof.Proof.HostChain
import proofs.«122299_j65446711657116_1_alg».proof.Proof.KernelRun

noncomputable section

open scoped BigOperators

namespace Cert.Bridge

open Idealize.ShloMosaic Idealize.ShloMosaic.TcCoe Idealize.SL.Sem Idealize.ShloMosaic.StableHlo
open Cert.ReferenceIdeal.ReadP

/-- The layer: the matrix product, aggregated over the edges with self-loops, plus the bias, rectified. -/
def result (x : (⟨Cert.ReferenceIdeal.S50000x512, .f32⟩ : BufTy).Contents (Elt Ideal))
    (e : (⟨Cert.ReferenceIdeal.S2x800000, .i32⟩ : BufTy).Contents (Elt Ideal))
    (w : (⟨Cert.ReferenceIdeal.S512x256, .f32⟩ : BufTy).Contents (Elt Ideal))
    (b : (⟨Cert.ReferenceIdeal.S256, .f32⟩ : BufTy).Contents (Elt Ideal)) :
    (⟨Cert.ReferenceIdeal.S50000x256, .f32⟩ : BufTy).Contents (Elt Ideal) :=
  Cert.KernelIdeal.BiasRelu.biasRelu (aggregate (val_main_v0 (F := Ideal) x w) e)
    (shapeCast Cert.KernelIdeal.S1x256 b Cert.KernelIdeal.Gen.shapeCasts_S256_S1x256)

/-- The kernel's whole product is the reference's contraction: the same sum over `k` at every entry. -/
theorem product_eq (x : (⟨Cert.ReferenceIdeal.S50000x512, .f32⟩ : BufTy).Contents (Elt Ideal))
    (w : (⟨Cert.ReferenceIdeal.S512x256, .f32⟩ : BufTy).Contents (Elt Ideal)) :
    Cert.KernelIdeal.Matmul.product x w = val_main_v0 (F := Ideal) x w := by
  funext i
  rw [val_main_v0_apply]
  unfold Cert.KernelIdeal.Matmul.product
  refine Finset.sum_congr rfl fun k _ => ?_
  have el : Cert.KernelIdeal.Matmul.xAt i k = lidx_main_v0 i k := funext fun a => by
    match a with
    | ⟨0, _⟩ => rfl
    | ⟨1, _⟩ => rfl
  have er : Cert.KernelIdeal.Matmul.wAt i k = ridx_main_v0 i k := funext fun a => by
    match a with
    | ⟨0, _⟩ => rfl
    | ⟨1, _⟩ => rfl
  rw [el, er]

/-- The reference's last stage is `result` of its arguments. -/
theorem reference_result (x : (⟨Cert.ReferenceIdeal.S50000x512, .f32⟩ : BufTy).Contents (Elt Ideal))
    (e : (⟨Cert.ReferenceIdeal.S2x800000, .i32⟩ : BufTy).Contents (Elt Ideal))
    (w : (⟨Cert.ReferenceIdeal.S512x256, .f32⟩ : BufTy).Contents (Elt Ideal))
    (b : (⟨Cert.ReferenceIdeal.S256, .f32⟩ : BufTy).Contents (Elt Ideal)) :
    val_main_v47 (F := Ideal) x e w b = result x e w b := by
  funext i
  rw [val_main_v47_apply, val_main_v46_apply, reference_aggregate, val_main_v45_apply, val_main_v44_apply,
    val_main_call1_v0_apply, val_main_call1_cst_apply]
  unfold result Cert.KernelIdeal.BiasRelu.biasRelu
  rw [shapeCast_apply b Cert.KernelIdeal.Gen.shapeCasts_S256_S1x256 (Cert.KernelIdeal.BiasRelu.biasAt i) (idx_main_v44 (idx_main_v45 i)) (by
    rw [Shape.rowMajor_val_two, Shape.rowMajor_val_one]
    show (i 1).val = 0 * 256 + (i 1).val
    omega)]

section Kernel

open Cert.KernelIdeal Cert.KernelIdeal.Gen

variable (m : (ℓ : Loc nD τ sig) → Buf (Elt Ideal) ℓ) (ρ : Dev nD → PrngReg)

/-- When the first region ends its output array is the whole product of the launch contents of `x` and `W`. -/
theorem first_region (c : Dev nD) :
    W1 m ρ c (Proc.devRef .tc main_v0)
      = val_main_v0 (F := Ideal) (m ((c.tc : Thread nD τ).loc main_arg0)) (m ((c.tc : Thread nD τ).loc main_arg2)) :=
  ((W1_arr m ρ c 2).trans (Cert.KernelIdeal.Matmul.final (V0 m ρ) c)).trans (product_eq _ _)

/-- The first region leaves the edge list and the bias as launched. -/
theorem first_region_edges (c : Dev nD) : W1 m ρ c (Proc.devRef .tc main_arg1) = m ((c.tc : Thread nD τ).loc main_arg1) :=
  W1_of_ne m ρ c main_arg1 (by decide)
theorem first_region_bias (c : Dev nD) : W1 m ρ c (Proc.devRef .tc main_arg3) = m ((c.tc : Thread nD τ).loc main_arg3) :=
  W1_of_ne m ρ c main_arg3 (by decide)

/-- The second region's output array after its write-backs is `result` of the launch contents of the four arguments. -/
theorem kernel_result (c : Dev nD) :
    (dat1 (V4 m ρ) c).arrAt 2 cfg1.N
      = result (m ((c.tc : Thread nD τ).loc main_arg0)) (m ((c.tc : Thread nD τ).loc main_arg1))
          (m ((c.tc : Thread nD τ).loc main_arg2)) (m ((c.tc : Thread nD τ).loc main_arg3)) := by
  have hagg : V4 m ρ c main_v43
      = aggregate (W1 m ρ c (Proc.devRef .tc main_v0)) (W1 m ρ c (Proc.devRef .tc main_arg1)) :=
    kernel_aggregate (W1 m ρ c)
  have hrow : V4 m ρ c main_v44
      = shapeCast Cert.KernelIdeal.S1x256 (W1 m ρ c (Proc.devRef .tc main_arg3)) shapeCasts_S256_S1x256 :=
    kernel_bias_row (W1 m ρ c)
  rw [Cert.KernelIdeal.BiasRelu.final (V4 m ρ) c, hagg, hrow, first_region m ρ c, first_region_edges m ρ c, first_region_bias m ρ c]
  rfl

end Kernel

end Cert.Bridge

end
-- ==== Proof.lean ====
/-
  The certificate of a graph-convolution layer: a matrix product tiled in 25 row blocks, host-side normalized aggregation
  over the edges with self-loops, and a bias-and-rectify pass tiled the same way, against the same layer written with
  whole-array operations.

  Over the extended reals both programs compute `Cert.Bridge.result`: the product x·W (the kernel's operands' rounding to
  bf16 is the identity there and its accumulator starts at the real 0, so its 25 row blocks are blocks of the reference's
  one contraction), then the SAME host operations on both sides (carried as one function, never opened), then
  max(aggregate + bias, 0) entry by entry, which the kernel computes in 25 row blocks and the reference in one piece.
  The three frames are the programs' runs with the results dropped; the idealization rewrote nothing, so `preserves` is `True`.
-/
import proofs.«122299_j65446711657116_1_alg».proof.Defs
import proofs.«122299_j65446711657116_1_alg».proof.Proof.Gen.Kernel
import proofs.«122299_j65446711657116_1_alg».proof.Proof.Gen.Kernel.Skeleton
import proofs.«122299_j65446711657116_1_alg».proof.Proof.Gen.Kernel.Launch
import proofs.«122299_j65446711657116_1_alg».proof.Proof.Gen.Kernel.Points
import proofs.«122299_j65446711657116_1_alg».proof.Proof.Gen.Kernel.Frame
import proofs.«122299_j65446711657116_1_alg».proof.Proof.Gen.KernelIdeal
import proofs.«122299_j65446711657116_1_alg».proof.Proof.Gen.KernelIdeal.Skeleton
import proofs.«122299_j65446711657116_1_alg».proof.Proof.Gen.KernelIdeal.Launch
import proofs.«122299_j65446711657116_1_alg».proof.Proof.Gen.KernelIdeal.Points
import proofs.«122299_j65446711657116_1_alg».proof.Proof.Gen.KernelIdeal.Frame
import proofs.«122299_j65446711657116_1_alg».proof.Proof.Gen.ReferenceIdeal
import proofs.«122299_j65446711657116_1_alg».proof.Proof.RefRun
import proofs.«122299_j65446711657116_1_alg».proof.Proof.RefRead
import proofs.«122299_j65446711657116_1_alg».proof.Proof.Gen.Pre_finite_inputs
import proofs.«122299_j65446711657116_1_alg».proof.Proof.Bridge
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both runs end with `Cert.Bridge.result` of the arguments. -/
theorem algebraic : Cert.algebraic_KernelIdeal_ReferenceIdeal := by
  intro m ρ m' ρ' _ hagree
  refine ⟨fun c => Cert.Bridge.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.Bridge.kernel_result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v47_eq, (hagree c).1, (hagree c).2.1, (hagree c).2.2.1, (hagree c).2.2.2]
    exact Cert.Bridge.reference_result _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
